-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S8192x8192 : Shape := ⟨2, ![8192, 8192]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x2 .f32) (main_arg1 : FVec F S8192x8192 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x2 : Shape := ⟨2, ![8192, 2]⟩
abbrev S8192x8192 : Shape := ⟨2, ![8192, 8192]⟩
abbrev S8192x1 : Shape := ⟨2, ![8192, 1]⟩
abbrev S8192 : Shape := ⟨1, ![8192]⟩
abbrev S1x8192 : Shape := ⟨2, ![1, 8192]⟩
abbrev S1024x512 : Shape := ⟨2, ![1024, 512]⟩
abbrev S1x512 : Shape := ⟨2, ![1, 512]⟩
abbrev S1024x1 : Shape := ⟨2, ![1024, 1]⟩
abbrev S1024 : Shape := ⟨1, ![1024]⟩
abbrev S_ : Shape := ⟨0, ![]⟩

abbrev nBuf : Space → Nat
  | .hbm => 13
  | .vmem => 13
  | .smem => 0
  | _ => 0

abbrev bufTy : (tb : Table) → Fin (tcTables nBuf tb) → BufTy
  | .hbm, ⟨0, _⟩ => ⟨S8192x2, .f32⟩
  | .hbm, ⟨1, _⟩ => ⟨S8192x8192, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S1x8192, .f32⟩
  | .hbm, ⟨7, _⟩ => ⟨S1x8192, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  shapeCasts_S8192_S1x8192 : S8192.ShapeCasts S1x8192
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  broadcasts_S1024x1_S1024x512 : S1024x1.Broadcasts S1024x512
  reduces_S1024x512_S1024 : S1024x512.Reduces [1] S1024
  shapeCasts_S1024_S1024x1 : S1024.ShapeCasts S1024x1
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x8192.size a
  hwx0_0 : ∀ i : grid0.Coords, EltTy.bits .f32 = 32 ∨ (Rect.block (s := S8192x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x8192.size a
  hwx0_1 : ∀ i : grid0.Coords, EltTy.bits .f32 = 32 ∨ (Rect.block (s := S1x8192) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x2 : Shape := ⟨2, ![8192, 2]⟩
abbrev S8192x8192 : Shape := ⟨2, ![8192, 8192]⟩
abbrev S1x8192x2 : Shape := ⟨3, ![1, 8192, 2]⟩
abbrev S8192x1x2 : Shape := ⟨3, ![8192, 1, 2]⟩
abbrev S8192x8192x2 : Shape := ⟨3, ![8192, 8192, 2]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192x8192, .f32⟩
  | .hbm, ⟨2, _⟩ => ⟨S1x8192x2, .f32⟩
  | .hbm, ⟨3, _⟩ => ⟨S8192x1x2, .f32⟩
  | .hbm, ⟨4, _⟩ => ⟨S8192x8192x2, .f32⟩
  | .hbm, ⟨5, _⟩ => ⟨S8192x8192x2, .f32⟩
  | .hbm, ⟨6, _⟩ => ⟨S8192x8192x2, .f32⟩
  | .hbm, ⟨7, _⟩ => ⟨S8192x8192x2, .f32⟩
  | .hbm, ⟨8, _⟩ => ⟨S_, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .i1⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_call3_v0 : Ref sig .tc := ⟨.hbm, 30, rfl⟩
abbrev main_call3_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩

abbrev nD : Nat := 1
abbrev τ : Topo := Topo.v7x

variable {F : FTy → Type} [FloatOps F]

class Facts₀ : Prop where
  bcast_S8192x2_S1x8192x2_1_2 : S8192x2.BroadcastsInDim S1x8192x2 (![1, 2] : Fin 2 → Fin S1x8192x2.rank)
  bcast_S8192x2_S8192x1x2_0_2 : S8192x2.BroadcastsInDim S8192x1x2 (![0, 2] : Fin 2 → Fin S8192x1x2.rank)
  bcast_S1x8192x2_S8192x8192x2_0_1_2 : S1x8192x2.BroadcastsInDim S8192x8192x2 (![0, 1, 2] : Fin 3 → Fin S8192x8192x2.rank)
  bcast_S8192x1x2_S8192x8192x2_0_1_2 : S8192x1x2.BroadcastsInDim S8192x8192x2 (![0, 1, 2] : Fin 3 → Fin S8192x8192x2.rank)
  reducesTo_S8192x8192x2_S8192x8192_d2 : S8192x8192x2.ReducesTo [2] S8192x8192
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts₀]

class Facts : Prop extends Facts₀ where

variable [Facts]
-- ==== Proof.Stress.lean ====
/-
  The stress of a point set against a table of target distances, on the extended reals.

  For a row point r and a column point c the squared distance is sq = (x_c - x_r)^2 + (y_c - y_r)^2 and the predicted
  distance is sqrt sq where sq > 0 and 0 elsewhere (the square root is taken of 1 where sq is not positive, and that
  value is then discarded). With d the target distance of the pair, the pair's term is ((pred - d) / d)^2 where
  d is not 0, and d itself where it is 0 (the quotient is then taken by 1 and discarded). The stress is the sum of
  the terms over all pairs, taken from 0.
-/
import Idealize.ShloMosaic.PureOps.Ideal
import Idealize.ShloMosaic.Lib.ValueIdx

noncomputable section

open scoped BigOperators

namespace Cert.Stress

open Idealize.ShloMosaic Idealize.ShloMosaic.ValueIdx

/-- The term of one pair: `xc yc` the column point, `xr yr` the row point, `d` the target distance. -/
def term (xc xr yc yr d : EReal) : EReal :=
  let z : EReal := Ideal.ofBits .f32 0x00000000#32
  let one : EReal := Ideal.ofBits .f32 0x3F800000#32
  let sq : EReal := (xc - xr) * (xc - xr) + (yc - yr) * (yc - yr)
  let pos : BitVec 1 := Ideal.cmp .ogt sq z
  let pred : EReal := Scalar.select pos (Ideal.sqrt (Scalar.select pos sq one)) z
  let mask : BitVec 1 := Ideal.cmp .one d z
  let q : EReal := Ideal.div (Scalar.select mask pred d - d) (Scalar.select mask d one)
  Scalar.select mask (q * q) d

/-- The points, one per row, as (x, y). -/
abbrev Pos : Type := (⟨2, ![8192, 2]⟩ : Shape).Idx → EReal
/-- The target distances, row point by column point. -/
abbrev Dist : Type := (⟨2, ![8192, 8192]⟩ : Shape).Idx → EReal

/-- The term of the pair (row point r, column point c). -/
def entry (pos : Pos) (dist : Dist) (r c : Fin 8192) : EReal :=
  term (pos (ix2 c (0 : Fin 2))) (pos (ix2 r (0 : Fin 2))) (pos (ix2 c (1 : Fin 2))) (pos (ix2 r (1 : Fin 2))) (dist (ix2 r c))

/-- The sum of row r's terms. -/
def rowSum (pos : Pos) (dist : Dist) (r : Fin 8192) : EReal := ∑ c : Fin 8192, entry pos dist r c

/-- The sum of all terms, row by row. -/
def total (pos : Pos) (dist : Dist) : EReal := ∑ r : Fin 8192, rowSum pos dist r

/-- The stress as a scalar array: the sum of all terms added to 0. -/
def result (pos : Pos) (dist : Dist) : (⟨0, ![]⟩ : Shape).Idx → EReal :=
  fun _ => Ideal.ofBits .f32 0x00000000#32 + total pos dist

end Cert.Stress

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Tile.lean ====
/-
  One tile of the kernel: a 1024 x 512 block of target distances, the 512 column points' coordinates as two rows,
  the 1024 row points' coordinates as two columns. The body's arithmetic on the tile spreads the rows and the
  columns over the block, forms each pair's term, and sums every row of terms into a column of 1024 partial sums.
  Read at row p the result is the sum over the tile's 512 columns of the pair's term.
-/
import proofs.«103024_j49065706390061_1_alg».proof.Proof.Gen.KernelIdeal.Skeleton
import proofs.«103024_j49065706390061_1_alg».proof.Proof.Stress
import proofs.«103024_j49065706390061_1_alg».proof.Proof.LibKeepdims

noncomputable section

open scoped BigOperators

namespace Cert.KernelIdeal.Tile

open Idealize.ShloMosaic Idealize.ShloMosaic.ValueIdx Cert.KernelIdeal Cert.KernelIdeal.Gen Cert.LibKeepdims Cert.Stress

/-- The tile's partial row sums: row p of the tile holds the sum, over the tile's columns q, of the term of the pair
    whose row point has coordinates (cx p, cy p), whose column point has (rx q, ry q) and whose target is d (p, q). -/
theorem partial_apply (d : Vec Ideal S1024x512 .f32) (rx : Vec Ideal S1x512 .f32) (cx : Vec Ideal S1024x1 .f32)
    (ry : Vec Ideal S1x512 .f32) (cy : Vec Ideal S1024x1 .f32) (p : Fin 1024) :
    k0_pay3 (F := Ideal) d rx cx ry cy (ix2 p (0 : Fin 1))
      = ∑ q : Fin 512, term (rx (ix2 (0 : Fin 1) q)) (cx (ix2 p (0 : Fin 1))) (ry (ix2 (0 : Fin 1) q)) (cy (ix2 p (0 : Fin 1))) (d (ix2 p q)) := by
  unfold k0_pay3
  refine (shapeCast_a_a1_apply _ _ p 0).trans ?_
  refine (rowSum_apply _ _ _ _ p).trans ?_
  refine Finset.sum_congr rfl fun q _ => ?_
  have e1 : broadcastTo S1024x512 (shapeCast S1x512 rx shapeCasts_S1x512_S1x512) broadcasts_S1x512_S1024x512 (ix2 p q) = rx (ix2 (0 : Fin 1) q) :=
    row_spread_apply rx _ _ p q
  have e2 : broadcastTo S1024x512 (shapeCast S1x512 ry shapeCasts_S1x512_S1x512) broadcasts_S1x512_S1024x512 (ix2 p q) = ry (ix2 (0 : Fin 1) q) :=
    row_spread_apply ry _ _ p q
  have e3 : broadcastTo S1024x512 (shapeCast S1024x1 cx shapeCasts_S1024x1_S1024x1) broadcasts_S1024x1_S1024x512 (ix2 p q) = cx (ix2 p (0 : Fin 1)) :=
    (broadcastTo_a1_ab_apply _ _ p q).trans (congrFun (shapeCast_self cx _) _)
  have e4 : broadcastTo S1024x512 (shapeCast S1024x1 cy shapeCasts_S1024x1_S1024x1) broadcasts_S1024x1_S1024x512 (ix2 p q) = cy (ix2 p (0 : Fin 1)) :=
    (broadcastTo_a1_ab_apply _ _ p q).trans (congrFun (shapeCast_self cy _) _)
  show term (broadcastTo S1024x512 (shapeCast S1x512 rx shapeCasts_S1x512_S1x512) broadcasts_S1x512_S1024x512 (ix2 p q))
      (broadcastTo S1024x512 (shapeCast S1024x1 cx shapeCasts_S1024x1_S1024x1) broadcasts_S1024x1_S1024x512 (ix2 p q))
      (broadcastTo S1024x512 (shapeCast S1x512 ry shapeCasts_S1x512_S1x512) broadcasts_S1x512_S1024x512 (ix2 p q))
      (broadcastTo S1024x512 (shapeCast S1024x1 cy shapeCasts_S1024x1_S1024x1) broadcasts_S1024x1_S1024x512 (ix2 p q))
      (d (ix2 p q)) = _
  rw [e1, e2, e3, e4]

end Cert.KernelIdeal.Tile

end
-- ==== Proof.Pieces.lean ====
/-
  What one run of the kernel's body leaves in the carried column of partial sums and, at a row tile's last column
  tile, in the output block. At a row tile's first column tile the body stores the zero column, reads it back and adds
  the tile's partial row sums; at every other tile it adds them to what the tile before left; at the last tile it
  also copies the column it has just stored into the output block.
-/
import proofs.«103024_j49065706390061_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A row tile's first column tile: the carried column ends at the zero column plus the tile's partial row sums. -/
theorem first_tile (c : Dev nD) (i : grid0.Coords) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .f32) (x1 : Vec F S1x512 .f32) (x2 : Vec F S1x512 .f32) (x3 : Vec F S1024x1 .f32) (x4 : Vec F S1024x1 .f32) :
    sout0_A_0 c i arg2 harg2 arg3 harg3 arg4 harg4 arg5 harg5 arg6 harg6 arg7 harg7 arg8 harg8 hc0 hc1 x0 x1 x2 x3 x4
      = k0_pay1 (k0_pay3 x0 x1 x3 x2 x4) (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg8.read_unread, View.ld_unit_zero (S := S1024x512) hz, View.ld_unit_zero (S := S1x512) hz, View.ld_unit_zero (S := S1024x1) hz]

/-- A column tile that is neither first nor last: the carried column ends at what it held plus the tile's partial row sums. -/
theorem middle_tile (c : Dev nD) (i : grid0.Coords) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .f32) (x1 : Vec F S1x512 .f32) (x2 : Vec F S1x512 .f32) (x3 : Vec F S1024x1 .f32) (x4 : Vec F S1024x1 .f32) (xs0 : Vec F S1024x1 .f32) :
    sout0_B_0 c i arg2 harg2 arg3 harg3 arg4 harg4 arg5 harg5 arg6 harg6 arg7 harg7 arg8 harg8 hc0 hc1 x0 x1 x2 x3 x4 xs0
      = k0_pay1 (k0_pay3 x0 x1 x3 x2 x4) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S1024x1) hz]
  simp only [View.readAt_eq_ld, harg2.read_unread, harg3.read_unread, harg4.read_unread, harg5.read_unread, harg6.read_unread, harg8.read_unread, View.ld_unit_zero (S := S1024x512) hz, View.ld_unit_zero (S := S1x512) hz, View.ld_unit_zero (S := S1024x1) hz]

/-- A row tile's last column tile: the carried column ends at what it held plus the tile's partial row sums, -/
theorem last_tile (c : Dev nD) (i : grid0.Coords) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .f32) (x1 : Vec F S1x512 .f32) (x2 : Vec F S1x512 .f32) (x3 : Vec F S1024x1 .f32) (x4 : Vec F S1024x1 .f32) (xs0 : Vec F S1024x1 .f32) :
    sout0_C_0 c i arg2 harg2 arg3 harg3 arg4 harg4 arg5 harg5 arg6 harg6 arg7 harg7 arg8 harg8 hc0 hc1 x0 x1 x2 x3 x4 xs0
      = k0_pay1 (k0_pay3 x0 x1 x3 x2 x4) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1024x1) hz]
  simp only [View.readAt_eq_ld, harg2.read_unread, harg3.read_unread, harg4.read_unread, harg5.read_unread, harg6.read_unread, harg8.read_unread, View.ld_unit_zero (S := S1024x512) hz, View.ld_unit_zero (S := S1x512) hz, View.ld_unit_zero (S := S1024x1) hz]

/-- and the output block ends at the same column. -/
theorem last_tile_out (c : Dev nD) (i : grid0.Coords) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .f32) (x1 : Vec F S1x512 .f32) (x2 : Vec F S1x512 .f32) (x3 : Vec F S1024x1 .f32) (x4 : Vec F S1024x1 .f32) (xs0 : Vec F S1024x1 .f32) :
    out0_C_5 c i arg2 harg2 arg3 harg3 arg4 harg4 arg5 harg5 arg6 harg6 arg7 harg7 arg8 harg8 hc0 hc1 x0 x1 x2 x3 x4 xs0
      = k0_pay1 (k0_pay3 x0 x1 x3 x2 x4) xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1024x1) hz, View.readCov_unit_zero (S := S1024x1) _ hz]
  simp only [View.readAt_eq_ld, harg2.read_unread, harg3.read_unread, harg4.read_unread, harg5.read_unread, harg6.read_unread, harg8.read_unread, View.ld_unit_zero (S := S1024x512) hz, View.ld_unit_zero (S := S1x512) hz, View.ld_unit_zero (S := S1024x1) hz]

end Cert.KernelIdeal.Pieces

end
-- ==== Proof.Blocks.lean ====
/-
  What the kernel's windows hold at a grid point. Point t = 16 i + j works on row tile i (rows 1024 i .. 1024 i + 1023)
  and column tile j (columns 512 j .. 512 j + 511): the block of target distances is that rectangle of the table; the
  two row vectors are the x and the y coordinates of the tile's column points; the two column vectors are the x and
  the y coordinates of the tile's row points. The coordinate vectors are columns of the point table, cut out and
  re-laid as a [1, 8192] row or an [8192, 1] column before the kernel starts.
-/
import proofs.«103024_j49065706390061_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx Cert.KernelIdeal Cert.KernelIdeal.Gen

/-! ## A column of the point table as a row and as a column -/

section Layout
variable {α : Type}

/-- Column o of the point table, cut out, flattened and laid as a row: entry k is point k's coordinate o. -/
theorem as_row (x : S8192x2.Idx → α) (o : Fin 2) (hs : S8192x2.Slices ![0, o.val] S8192x1) (h1 : S8192x1.ShapeCasts S8192)
    (h2 : S8192.ShapeCasts S1x8192) (k : Fin 8192) :
    shapeCast S1x8192 (shapeCast S8192 (extractStridedSlice S8192x1 ![0, o.val] x hs) h1) h2 (ix2 (0 : Fin 1) k) = x (ix2 k o) := by
  refine (shapeCast_apply _ h2 (ix2 (0 : Fin 1) k) (ix1 k) ?_).trans ?_
  · rw [Shape.rowMajor_val_one, Shape.rowMajor_val_two]
    show k.val = 0 * 8192 + k.val
    omega
  refine (shapeCast_apply _ h1 (ix1 k) (ix2 k (0 : Fin 1)) ?_).trans ?_
  · rw [Shape.rowMajor_val_one, Shape.rowMajor_val_two]
    show k.val * 1 + 0 = k.val
    omega
  refine extractStridedSlice_apply _ x hs (ix2 k (0 : Fin 1)) (ix2 k o) fun a => ?_
  match a with
  | ⟨0, _⟩ => show k.val = 0 + k.val; omega
  | ⟨1, _⟩ => show o.val = o.val + 0; omega

/-- The same column laid as a column: entry k is point k's coordinate o. -/
theorem as_column (x : S8192x2.Idx → α) (o : Fin 2) (hs : S8192x2.Slices ![0, o.val] S8192x1) (h1 : S8192x1.ShapeCasts S8192)
    (h2 : S8192.ShapeCasts S8192x1) (k : Fin 8192) :
    shapeCast S8192x1 (shapeCast S8192 (extractStridedSlice S8192x1 ![0, o.val] x hs) h1) h2 (ix2 k (0 : Fin 1)) = x (ix2 k o) := by
  refine (shapeCast_apply _ h2 (ix2 k (0 : Fin 1)) (ix1 k) ?_).trans ?_
  · rw [Shape.rowMajor_val_one, Shape.rowMajor_val_two]
    show k.val = k.val * 1 + 0
    omega
  refine (shapeCast_apply _ h1 (ix1 k) (ix2 k (0 : Fin 1)) ?_).trans ?_
  · rw [Shape.rowMajor_val_one, Shape.rowMajor_val_two]
    show k.val * 1 + 0 = k.val
    omega
  refine extractStridedSlice_apply _ x hs (ix2 k (0 : Fin 1)) (ix2 k o) fun a => ?_
  match a with
  | ⟨0, _⟩ => show k.val = 0 + k.val; omega
  | ⟨1, _⟩ => show o.val = o.val + 0; omega

end Layout

variable {F : FTy → Type} [FloatOps F]
variable (m : (ℓ : Loc nD τ sig) → Buf (Elt F) ℓ)

/-! ## The coordinate vectors as the kernel finds them -/

/-- The column points' x coordinates: a row. -/
theorem V_row_x (c : Dev nD) : (V m c main_v4 : S1x8192.Idx → Elt F .f32)
    = shapeCast S1x8192 (shapeCast S8192 (extractStridedSlice S8192x1 ![0, 0] (m ((c : Thread nD τ).loc main_arg0)) slices_S8192x2_S8192x1_0_0) shapeCasts_S8192x1_S8192) shapeCasts_S8192_S1x8192 := by
  show StableHlo.after hostOps0 (fun b => m (c, b)) (Proc.devRef .tc main_v4) = _
  after_results
  rfl

/-- The column points' y coordinates: a row. -/
theorem V_row_y (c : Dev nD) : (V m c main_v5 : S1x8192.Idx → Elt F .f32)
    = shapeCast S1x8192 (shapeCast S8192 (extractStridedSlice S8192x1 ![0, 1] (m ((c : Thread nD τ).loc main_arg0)) slices_S8192x2_S8192x1_0_1) shapeCasts_S8192x1_S8192) shapeCasts_S8192_S1x8192 := by
  show StableHlo.after hostOps0 (fun b => m (c, b)) (Proc.devRef .tc main_v5) = _
  after_results
  rfl

/-- The row points' x coordinates: a column. -/
theorem V_col_x (c : Dev nD) : (V m c main_v6 : S8192x1.Idx → Elt F .f32)
    = shapeCast S8192x1 (shapeCast S8192 (extractStridedSlice S8192x1 ![0, 0] (m ((c : Thread nD τ).loc main_arg0)) slices_S8192x2_S8192x1_0_0) shapeCasts_S8192x1_S8192) shapeCasts_S8192_S8192x1 := by
  show StableHlo.after hostOps0 (fun b => m (c, b)) (Proc.devRef .tc main_v6) = _
  after_results
  rfl

/-- The row points' y coordinates: a column. -/
theorem V_col_y (c : Dev nD) : (V m c main_v7 : S8192x1.Idx → Elt F .f32)
    = shapeCast S8192x1 (shapeCast S8192 (extractStridedSlice S8192x1 ![0, 1] (m ((c : Thread nD τ).loc main_arg0)) slices_S8192x2_S8192x1_0_1) shapeCasts_S8192x1_S8192) shapeCasts_S8192_S8192x1 := by
  show StableHlo.after hostOps0 (fun b => m (c, b)) (Proc.devRef .tc main_v7) = _
  after_results
  rfl

/-! ## Which tile a grid point works on -/

/-- Point t works on row tile t / 16 and column tile t % 16: the windows' block numbers, decided over the grid. -/
theorem idx_facts : ∀ t : Fin cfg0.N,
    win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = 0 ∧ win0_2.index t (1 : Fin 2) = t.val % 16
    ∧ win0_3.index t (0 : Fin 2) = t.val / 16 ∧ win0_3.index t (1 : Fin 2) = 0
    ∧ win0_4.index t (0 : Fin 2) = t.val / 16 ∧ win0_4.index t (1 : Fin 2) = 0
    ∧ win0_5.index t (0 : Fin 2) = t.val / 16 ∧ win0_5.index t (1 : Fin 2) = 0 :=
  (by decide +kernel : ∀ t : Fin grid0.N, _)

/-- Row p of point t's row tile is a row of the table. -/
theorem row_lt (t : Fin cfg0.N) (p : Fin 1024) : 1024 * (t.val / 16) + p.val < 8192 := by
  have := lt_of_lt_of_eq t.isLt (show cfg0.N = 128 from N_0); have := p.isLt; omega
/-- Column q of point t's column tile is a column of the table. -/
theorem col_lt (t : Fin cfg0.N) (q : Fin 512) : 512 * (t.val % 16) + q.val < 8192 := by
  have := q.isLt; omega

/-- Row p of point t's row tile. -/
abbrev rowOf (t : Fin cfg0.N) (p : Fin 1024) : Fin 8192 := ⟨1024 * (t.val / 16) + p.val, row_lt t p⟩
/-- Column q of point t's column tile. -/
abbrev colOf (t : Fin cfg0.N) (q : Fin 512) : Fin 8192 := ⟨512 * (t.val % 16) + q.val, col_lt t q⟩

/-! ## The windows' blocks at a point -/

/-- The block of target distances: rows of the row tile by columns of the column tile. -/
theorem dist_block (c : Dev nD) (t : Fin cfg0.N) (p : Fin 1024) (q : Fin 512) :
    (iblk m c 0 t : Vec F S1024x512 .f32) (ix2 p q) = m ((c : Thread nD τ).loc main_arg1) (ix2 (rowOf t p) (colOf t q)) := by
  obtain ⟨e0, e1, -⟩ := idx_facts t
  unfold iblk
  rw [View.read_apply]
  show V m c main_arg1 _ = _
  rw [V_main_arg1]
  refine congrArg _ (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 512 + 1 * q.val = 512 * (t.val % 16) + q.val; rw [e1]; omega

/-- The column points' x coordinates. -/
theorem row_x_block (c : Dev nD) (t : Fin cfg0.N) (q : Fin 512) :
    (iblk m c 1 t : Vec F S1x512 .f32) (ix2 (0 : Fin 1) q) = m ((c : Thread nD τ).loc main_arg0) (ix2 (colOf t q) (0 : Fin 2)) := by
  obtain ⟨-, -, e0, e1, -⟩ := idx_facts t
  unfold iblk
  rw [View.read_apply]
  show V m c main_v4 _ = _
  rw [V_row_x]
  refine Eq.trans (congrArg _ (funext fun a => Fin.ext ?_)) (as_row _ (0 : Fin 2) _ _ _ (colOf t q))
  match a with
  | ⟨0, _⟩ => show win0_1.index t (0 : Fin 2) * 1 + 1 * 0 = 0; rw [e0]
  | ⟨1, _⟩ => show win0_1.index t (1 : Fin 2) * 512 + 1 * q.val = 512 * (t.val % 16) + q.val; rw [e1]; omega

/-- The column points' y coordinates. -/
theorem row_y_block (c : Dev nD) (t : Fin cfg0.N) (q : Fin 512) :
    (iblk m c 2 t : Vec F S1x512 .f32) (ix2 (0 : Fin 1) q) = m ((c : Thread nD τ).loc main_arg0) (ix2 (colOf t q) (1 : Fin 2)) := by
  obtain ⟨-, -, -, -, e0, e1, -⟩ := idx_facts t
  unfold iblk
  rw [View.read_apply]
  show V m c main_v5 _ = _
  rw [V_row_y]
  refine Eq.trans (congrArg _ (funext fun a => Fin.ext ?_)) (as_row _ (1 : Fin 2) _ _ _ (colOf t q))
  match a with
  | ⟨0, _⟩ => show win0_2.index t (0 : Fin 2) * 1 + 1 * 0 = 0; rw [e0]
  | ⟨1, _⟩ => show win0_2.index t (1 : Fin 2) * 512 + 1 * q.val = 512 * (t.val % 16) + q.val; rw [e1]; omega

/-- The row points' x coordinates. -/
theorem col_x_block (c : Dev nD) (t : Fin cfg0.N) (p : Fin 1024) :
    (iblk m c 3 t : Vec F S1024x1 .f32) (ix2 p (0 : Fin 1)) = m ((c : Thread nD τ).loc main_arg0) (ix2 (rowOf t p) (0 : Fin 2)) := by
  obtain ⟨-, -, -, -, -, -, e0, e1, -⟩ := idx_facts t
  unfold iblk
  rw [View.read_apply]
  show V m c main_v6 _ = _
  rw [V_col_x]
  refine Eq.trans (congrArg _ (funext fun a => Fin.ext ?_)) (as_column _ (0 : Fin 2) _ _ _ (rowOf t p))
  match a with
  | ⟨0, _⟩ => show win0_3.index t (0 : Fin 2) * 1024 + 1 * p.val = 1024 * (t.val / 16) + p.val; rw [e0]; omega
  | ⟨1, _⟩ => show win0_3.index t (1 : Fin 2) * 1 + 1 * 0 = 0; rw [e1]

/-- The row points' y coordinates. -/
theorem col_y_block (c : Dev nD) (t : Fin cfg0.N) (p : Fin 1024) :
    (iblk m c 4 t : Vec F S1024x1 .f32) (ix2 p (0 : Fin 1)) = m ((c : Thread nD τ).loc main_arg0) (ix2 (rowOf t p) (1 : Fin 2)) := by
  obtain ⟨-, -, -, -, -, -, -, -, e0, e1, -⟩ := idx_facts t
  unfold iblk
  rw [View.read_apply]
  show V m c main_v7 _ = _
  rw [V_col_y]
  refine Eq.trans (congrArg _ (funext fun a => Fin.ext ?_)) (as_column _ (1 : Fin 2) _ _ _ (rowOf t p))
  match a with
  | ⟨0, _⟩ => show win0_4.index t (0 : Fin 2) * 1024 + 1 * p.val = 1024 * (t.val / 16) + p.val; rw [e0]; omega
  | ⟨1, _⟩ => show win0_4.index t (1 : Fin 2) * 1 + 1 * 0 = 0; rw [e1]

end Cert.KernelIdeal.Blocks

end
-- ==== Proof.Sums.lean ====
/-
  Sums of the pairs' terms taken in pieces. A row's sum is built up 512 columns at a time; the partial sum of a
  row's first n terms is written over the natural numbers, a pair outside the table counting 0, so that "the first
  n columns" needs no bound. Adding 512 more columns adds their 512 terms, the first 8192 columns are the whole row,
  and summing the rows' sums, or the whole table at once, is the same total: only the regrouping of a finite sum in
  a commutative monoid is used, so the infinities of the extended reals do not matter.
-/
import proofs.«103024_j49065706390061_1_alg».proof.Proof.Stress
import Mathlib.Algebra.BigOperators.Fin
import Mathlib.Algebra.BigOperators.Intervals

noncomputable section

open scoped BigOperators

namespace Cert.Stress

open Idealize.ShloMosaic Idealize.ShloMosaic.ValueIdx

variable (pos : Pos) (dist : Dist)

/-- The term of the pair (r, c) for any naturals: 0 outside the table. -/
def entryN (r c : ℕ) : EReal :=
  if h : r < 8192 ∧ c < 8192 then entry pos dist ⟨r, h.1⟩ ⟨c, h.2⟩ else 0

theorem entryN_of_lt (r c : ℕ) (hr : r < 8192) (hc : c < 8192) : entryN pos dist r c = entry pos dist ⟨r, hr⟩ ⟨c, hc⟩ :=
  dif_pos ⟨hr, hc⟩

/-- The sum of row r's first n terms. -/
def partialRow (r n : ℕ) : EReal := ∑ c ∈ Finset.range n, entryN pos dist r c

theorem partialRow_zero (r : ℕ) : partialRow pos dist r 0 = 0 := Finset.sum_range_zero _

/-- 512 more columns add their 512 terms. -/
theorem partialRow_add_tile (r n : ℕ) :
    partialRow pos dist r (n + 512) = partialRow pos dist r n + ∑ q : Fin 512, entryN pos dist r (n + q.val) := by
  unfold partialRow
  rw [Finset.sum_range_add, Finset.sum_range (fun x => entryN pos dist r (n + x))]

/-- All 8192 columns are the row's sum. -/
theorem partialRow_full (r : Fin 8192) : partialRow pos dist r.val 8192 = rowSum pos dist r := by
  unfold partialRow rowSum
  rw [Finset.sum_range (fun c => entryN pos dist r.val c)]
  exact Finset.sum_congr rfl fun c _ => entryN_of_lt pos dist r.val c.val r.isLt c.isLt

/-- A column of the rows' sums adds up to the total. -/
theorem sum_column (f : (⟨2, ![8192, 1]⟩ : Shape).Idx → EReal)
    (hf : ∀ r : Fin 8192, f (ix2 r (0 : Fin 1)) = rowSum pos dist r) : ∑ j, f j = total pos dist := by
  rw [sum_idx2]
  unfold total
  refine Finset.sum_congr rfl fun r _ => ?_
  rw [Fin.sum_univ_one]
  exact hf r

/-- The whole table of terms adds up to the total. -/
theorem sum_table (g : (⟨2, ![8192, 8192]⟩ : Shape).Idx → EReal)
    (hg : ∀ r c : Fin 8192, g (ix2 r c) = entry pos dist r c) : ∑ j, g j = total pos dist := by
  rw [sum_idx2]
  unfold total rowSum
  exact Finset.sum_congr rfl fun r _ => Finset.sum_congr rfl fun c _ => hg r c

end Cert.Stress

end
-- ==== Proof.Accum.lean ====
/-
  The carried column across a row tile's sixteen column tiles. After the body at point t = 16 i + j the carried column
  holds, at row p, the sum of the first 512 (j + 1) terms of table row 1024 i + p: the first column tile starts from
  the zero column, every later one adds its 512 terms to what the tile before left. At j = 15 that is the whole
  row's sum, and the output block is the same column.
-/
import proofs.«103024_j49065706390061_1_alg».proof.Proof.Tile
import proofs.«103024_j49065706390061_1_alg».proof.Proof.Pieces
import proofs.«103024_j49065706390061_1_alg».proof.Proof.Blocks
import proofs.«103024_j49065706390061_1_alg».proof.Proof.Sums
import Idealize.ShloMosaic.PureOps.Ideal.Laws

set_option maxRecDepth 16384

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks Cert.Stress

variable (m : (ℓ : Loc nD τ sig) → Buf (Elt Ideal) ℓ)

/-- The point table the program was launched with, -/
abbrev pts (c : Dev nD) : Pos := m ((c : Thread nD τ).loc main_arg0)
/-- and the table of target distances. -/
abbrev tgt (c : Dev nD) : Dist := m ((c : Thread nD τ).loc main_arg1)

/-- Adding a column of partial sums to the carried column adds entry by entry. -/
theorem carry_apply (part acc : Vec Ideal S1024x1 .f32) (j : S1024x1.Idx) : k0_pay1 (F := Ideal) part acc j = acc j + part j := by
  unfold k0_pay1
  exact congrFun (shapeCast_self _ _) j

/-- The column a row tile starts from is zero. -/
theorem start_apply (j : S1024x1.Idx) : k0_pay2 (F := Ideal) j = 0 := by
  unfold k0_pay2
  exact (congrFun (shapeCast_self _ _) j).trans Ideal.ofBits_zero_f32

/-- The tile of point t adds to row p the 512 terms of table row 1024 (t / 16) + p at columns 512 (t % 16) + q. -/
theorem tile_partial (c : Dev nD) (t : Fin cfg0.N) (p : Fin 1024) :
    k0_pay3 (F := Ideal) (iblk m c 0 t) (iblk m c 1 t) (iblk m c 3 t) (iblk m c 2 t) (iblk m c 4 t) (ix2 p (0 : Fin 1))
      = ∑ q : Fin 512, entryN (pts m c) (tgt m c) (1024 * (t.val / 16) + p.val) (512 * (t.val % 16) + q.val) := by
  refine (Tile.partial_apply (iblk m c 0 t) (iblk m c 1 t) (iblk m c 3 t) (iblk m c 2 t) (iblk m c 4 t) p).trans ?_
  refine Finset.sum_congr rfl fun q _ => ?_
  rw [entryN_of_lt _ _ _ _ (row_lt t p) (col_lt t q)]
  unfold entry
  exact congr (congr (congr (congr (congrArg term (row_x_block m c t q)) (col_x_block m c t p)) (row_y_block m c t q))
    (col_y_block m c t p)) (dist_block m c t p q)

/-- A row tile's first column tile leaves its own 512 terms. -/
theorem carried_first (c : Dev nD) (t : Fin cfg0.N) (h0 : t.val % 16 = 0) (h1 : ¬t.val % 16 = 15) (p : Fin 1024) :
    (outsAt0 m c t.val t.isLt).2 (ix2 p (0 : Fin 1))
      = 0 + ∑ q : Fin 512, entryN (pts m c) (tgt m c) (1024 * (t.val / 16) + p.val) (512 * (t.val % 16) + q.val) := by
  have e := Pieces.first_tile (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
  have e2 := congrFun e (ix2 p (0 : Fin 1))
  rw [outsAt0_A m c t h0 h1]
  dsimp only
  refine e2.trans ?_
  rw [carry_apply, start_apply, tile_partial]

/-- Every later column tile adds its 512 terms to what the tile before left, -/
theorem carried_next (c : Dev nD) (t : Fin cfg0.N) (h0 : ¬t.val % 16 = 0) (p : Fin 1024) :
    (outsAt0 m c t.val t.isLt).2 (ix2 p (0 : Fin 1))
      = (outsAt0 m c (t.val - 1) (Nat.lt_of_le_of_lt (Nat.sub_le _ _) t.isLt)).2 (ix2 p (0 : Fin 1))
        + ∑ q : Fin 512, entryN (pts m c) (tgt m c) (1024 * (t.val / 16) + p.val) (512 * (t.val % 16) + q.val) := by
  by_cases h1 : t.val % 16 = 15
  · have e := Pieces.last_tile (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
    have e2 := congrFun e (ix2 p (0 : Fin 1))
    rw [outsAt0_C m c t h0 h1]
    dsimp only
    refine e2.trans ?_
    rw [carry_apply, tile_partial]
  · have e := Pieces.middle_tile (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2
    have e2 := congrFun e (ix2 p (0 : Fin 1))
    rw [outsAt0_B m c t h0 h1]
    dsimp only
    refine e2.trans ?_
    rw [carry_apply, tile_partial]

/-- and at the last one the output block is the carried column. -/
theorem out_last (c : Dev nD) (t : Fin cfg0.N) (h0 : ¬t.val % 16 = 0) (h1 : t.val % 16 = 15) :
    (outsAt0 m c t.val t.isLt).1 = (outsAt0 m c t.val t.isLt).2 := by
  have e := Pieces.last_tile (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  have e' := Pieces.last_tile_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  rw [outsAt0_C m c t h0 h1]
  dsimp only
  exact e'.trans e.symm

/-- THE CARRIED COLUMN after point n, at row p: the first 512 (n % 16 + 1) terms of table row 1024 (n / 16) + p. -/
theorem carried (c : Dev nD) : ∀ (n : ℕ) (h : n < cfg0.N) (p : Fin 1024),
    (outsAt0 m c n h).2 (ix2 p (0 : Fin 1)) = partialRow (pts m c) (tgt m c) (1024 * (n / 16) + p.val) (512 * (n % 16 + 1)) := by
  intro n
  induction n with
  | zero =>
    intro h p
    refine (carried_first m c ⟨0, h⟩ rfl (by show ¬(0 : ℕ) % 16 = 15; decide) p).trans ?_
    have e := partialRow_add_tile (pts m c) (tgt m c) (1024 * (0 / 16) + p.val) 0
    rw [partialRow_zero] at e
    exact e.symm
  | succ k ih =>
    intro h p
    have hN : k + 1 < 128 := lt_of_lt_of_eq h (show cfg0.N = 128 from N_0)
    by_cases h0 : (k + 1) % 16 = 0
    · refine (carried_first m c ⟨k + 1, h⟩ h0 (by show ¬(k + 1) % 16 = 15; omega) p).trans ?_
      show 0 + ∑ q : Fin 512, entryN (pts m c) (tgt m c) (1024 * ((k + 1) / 16) + p.val) (512 * ((k + 1) % 16) + q.val) = _
      rw [h0]
      have e := partialRow_add_tile (pts m c) (tgt m c) (1024 * ((k + 1) / 16) + p.val) 0
      rw [partialRow_zero] at e
      exact e.symm
    · refine (carried_next m c ⟨k + 1, h⟩ h0 p).trans ?_
      show (outsAt0 m c k _).2 (ix2 p (0 : Fin 1)) + ∑ q : Fin 512, entryN (pts m c) (tgt m c) (1024 * ((k + 1) / 16) + p.val) (512 * ((k + 1) % 16) + q.val) = _
      rw [ih (Nat.lt_of_succ_lt h) p]
      have e1 : (k + 1) / 16 = k / 16 := by omega
      have e2 : (k + 1) % 16 = k % 16 + 1 := by omega
      rw [e1, e2]
      have e := partialRow_add_tile (pts m c) (tgt m c) (1024 * (k / 16) + p.val) (512 * (k % 16 + 1))
      rw [show 512 * (k % 16 + 1 + 1) = 512 * (k % 16 + 1) + 512 by omega]
      exact e.symm

end Cert.KernelIdeal.Accum

end
-- ==== Proof.Final.lean ====
/-
  The kernel's result. The output block is written back once per row tile, after its last column tile, and then
  holds the row tile's 1024 row sums; the eight row tiles fill the [8192, 1] result column, entry r the sum of table
  row r. The program then adds the column's entries to 0: the stress.
-/
import proofs.«103024_j49065706390061_1_alg».proof.Proof.Accum
import Idealize.ShloMosaic.Lib.Pipeline.Value
import Idealize.ShloMosaic.Lib.StableHlo.Run

set_option maxRecDepth 16384

noncomputable section

open scoped BigOperators

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum Cert.Stress

variable (m : (ℓ : Loc nD τ sig) → Buf (Elt Ideal) ℓ) (ρ : Dev nD → PrngReg)

/-- The column of the rows' sums. -/
def rowSums (c : Dev nD) : Buf (Elt Ideal) ((c : Thread nD τ).loc main_v8) :=
  fun j => rowSum (pts m c) (tgt m c) (j 0)

/-- What a row tile's last point writes back is the row tile's part of the column of row sums. -/
theorem flushed_eq (c : Dev nD) (t : Fin cfg0.N) (hf : (cfg0.win 5).flush t = true) :
    (dats m 0 c).flushed 5 t = ((cfg0.win 5).blk t).view.read (Elt Ideal) (rowSums m c) := by
  have h15 : t.val % 16 = 15 := (flush0_5 t).mp hf
  obtain ⟨-, -, -, -, -, -, -, -, -, -, e0, e1⟩ := idx_facts t
  show (cfg0.win 5).cut (grid0.coords t) ((dats m 0 c).after 5 t) = _
  rw [after0_5, out_last m c t (by omega) h15]
  funext y
  obtain ⟨p, u, rfl⟩ : ∃ (p : Fin 1024) (u : Fin 1), y = ix2 p u := ⟨y 0, y 1, eq_ix2 y⟩
  obtain rfl : u = 0 := Subsingleton.elim _ _
  rw [View.read_apply]
  have hr : ((cfg0.win 5).blk t).view.emb (ix2 p (0 : Fin 1)) (0 : Fin 2) = rowOf t p := Fin.ext (by
    show win0_5.index t (0 : Fin 2) * 1024 + 1 * p.val = 1024 * (t.val / 16) + p.val
    rw [e0]; omega)
  show (outsAt0 m c t.val t.isLt).2 (ix2 p (0 : Fin 1))
    = rowSum (pts m c) (tgt m c) (((cfg0.win 5).blk t).view.emb (ix2 p (0 : Fin 1)) (0 : Fin 2))
  rw [carried m c t.val t.isLt p, h15, hr, ← partialRow_full]

/-- Every entry of the result column lies in the block some row tile's last point writes back. -/
theorem covered (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hlt : 16 * ((i 0).val / 1024) + 15 < cfg0.N := lt_of_lt_of_eq (by omega) (show (128 : ℕ) = cfg0.N from N_0.symm)
  obtain ⟨-, -, -, -, -, -, -, -, -, -, e0, e1⟩ := idx_facts ⟨16 * ((i 0).val / 1024) + 15, hlt⟩
  refine ⟨⟨16 * ((i 0).val / 1024) + 15, hlt⟩, (flush0_5 _).mpr (by show (16 * ((i 0).val / 1024) + 15) % 16 = 15; omega), ?_⟩
  show i ∈ ((View.whole main_v8).slice (win0_5.rect ⟨16 * ((i 0).val / 1024) + 15, hlt⟩)).set
  rw [View.set_slice_whole, Rect.mem_set_unit]
  intro a
  match a with
  | ⟨0, _⟩ =>
    show win0_5.index ⟨16 * ((i 0).val / 1024) + 15, hlt⟩ (0 : Fin 2) * 1024 ≤ (i 0).val
      ∧ (i 0).val < win0_5.index ⟨16 * ((i 0).val / 1024) + 15, hlt⟩ (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_5.index ⟨16 * ((i 0).val / 1024) + 15, hlt⟩ (1 : Fin 2) * 1 ≤ (i 1).val
      ∧ (i 1).val < win0_5.index ⟨16 * ((i 0).val / 1024) + 15, hlt⟩ (1 : Fin 2) * 1 + 1
    rw [e1]; omega

/-- So the result column ends holding the rows' sums. -/
theorem final_column (c : Dev nD) : (dats m 0 c).arrAt 5 cfg0.N = rowSums m c :=
  (dats m 0 c).arrAt_eq_of_cover 5 (rowSums m c) (flushed_eq m c) covered

/-- The program's result: the column's entries added to 0. -/
theorem tail_eq (c : Dev nD) :
    Pipeline.afterTail₀ cfgs (dats m) 0 (V0 m) [hostOps1] c main_v9 = result (pts m c) (tgt m c) := by
  unfold Pipeline.afterTail₀
  show StableHlo.after hostOps1 _ (Proc.devRef .tc main_v9) = _
  after_results
  have hv : Pipeline.withArrays (cfgs 0).spec c (V0 m c) (fun w => (dats m 0 c).arrAt w (cfgs 0).N) (Proc.devRef .tc main_v8)
      = rowSums m c :=
    (Pipeline.withArrays_arr spec0 launch0.win.arr_inj c _ _ 5).trans (final_column m c)
  rw [hv]
  funext i
  simp only [Host.reduceAdd, Ideal.hostReduceAdd_def]
  refine (Ideal.hostReduceAdd_total reducesTo_S8192x1_S_d0_1 (fun b => b.elim0) (rowSums m c) _ i).trans ?_
  unfold result
  rw [sum_column (pts m c) (tgt m c) (rowSums m c) (fun r => rfl)]
  rfl

/-- The run, read: the result at the stress of the launch tables, the tables unchanged. -/
theorem run : θ_run defs (onTc (τ := τ) (main (F := Ideal))) ⟨m, fun _ => 0, ρ⟩ fun r => ∀ c : Dev nD,
      r.2.mem ((c.tc : Thread nD τ).loc main_v9) = result (pts m c) (tgt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.Final

end
-- ==== Proof.RefSide.lean ====
/-
  The reference computes the stress directly: the table of coordinate differences (column point minus row point) for
  every pair and both coordinates, their squares summed over the two coordinates from 0, the guarded square root, the
  pair's term, and one sum of the whole table of terms from 0. Entry (r, c) of its table of terms is the term of the
  pair (r, c); the sum of the two squares taken from 0 is the sum of the two squares.
-/
import proofs.«103024_j49065706390061_1_alg».proof.Proof.Gen.ReferenceIdeal.Read
import proofs.«103024_j49065706390061_1_alg».proof.Proof.Stress
import proofs.«103024_j49065706390061_1_alg».proof.Proof.Sums
import Idealize.ShloMosaic.PureOps.Ideal.Laws

noncomputable section

open scoped BigOperators

namespace Cert.ReferenceIdeal.RefSide

open Idealize.ShloMosaic Idealize.ShloMosaic.ValueIdx Cert.ReferenceIdeal Cert.ReferenceIdeal.Read Cert.Stress

/-- The squared distance of the pair (r, c) as the reference forms it. -/
theorem sq_entry (x0 : Pos) (r c : Fin 8192) :
    val_main_v6 (F := Ideal) x0 (ix2 r c)
      = (x0 (ix2 c (0 : Fin 2)) - x0 (ix2 r (0 : Fin 2))) * (x0 (ix2 c (0 : Fin 2)) - x0 (ix2 r (0 : Fin 2)))
        + (x0 (ix2 c (1 : Fin 2)) - x0 (ix2 r (1 : Fin 2))) * (x0 (ix2 c (1 : Fin 2)) - x0 (ix2 r (1 : Fin 2))) := by
  have i00 : idx_main_v0 (idx_main_v2 (idx_main_v6 (ix2 r c) 0)) = ix2 c (0 : Fin 2) :=
    funext fun a => Fin.ext (by match a with | ⟨0, _⟩ => rfl | ⟨1, _⟩ => rfl)
  have i01 : idx_main_v0 (idx_main_v2 (idx_main_v6 (ix2 r c) 1)) = ix2 c (1 : Fin 2) :=
    funext fun a => Fin.ext (by match a with | ⟨0, _⟩ => rfl | ⟨1, _⟩ => rfl)
  have i10 : idx_main_v1 (idx_main_v3 (idx_main_v6 (ix2 r c) 0)) = ix2 r (0 : Fin 2) :=
    funext fun a => Fin.ext (by match a with | ⟨0, _⟩ => rfl | ⟨1, _⟩ => rfl)
  have i11 : idx_main_v1 (idx_main_v3 (idx_main_v6 (ix2 r c) 1)) = ix2 r (1 : Fin 2) :=
    funext fun a => Fin.ext (by match a with | ⟨0, _⟩ => rfl | ⟨1, _⟩ => rfl)
  rw [val_main_v6_apply]
  simp only [Fin.sum_univ_two, val_main_v5_apply, val_main_v4_apply, val_main_v2_apply, val_main_v3_apply, val_main_v0_apply,
    val_main_v1_apply, val_main_cst_apply, i00, i01, i10, i11, Ideal.ofBits_def, Ideal.ofBits_zero_f32, zero_add,
    Ideal.mulf_def, Ideal.subf_def]

/-- Entry (r, c) of the reference's table of terms is the term of the pair (r, c). -/
theorem table_entry (x0 : Pos) (x1 : Dist) (r c : Fin 8192) :
    val_main_v21 (F := Ideal) x0 x1 (ix2 r c) = entry x0 x1 r c := by
  simp only [val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply, val_main_v7_apply, val_main_call0_v1_apply, val_main_call0_v0_apply,
    val_main_call1_v1_apply, val_main_call1_v0_apply, val_main_call3_v1_apply, val_main_call3_v0_apply,
    val_main_cst_0_apply, val_main_cst_1_apply, val_main_cst_2_apply, val_main_cst_3_apply, val_main_cst_4_apply,
    val_main_cst_5_apply, sq_entry]
  rfl

/-- The reference's result is the stress. -/
theorem result_eq (x0 : Pos) (x1 : Dist) : val_main_v22 (F := Ideal) x0 x1 = result x0 x1 := by
  funext i
  rw [val_main_v22_apply]
  unfold result
  rw [sum_table x0 x1 _ (table_entry x0 x1)]
  rfl

end Cert.ReferenceIdeal.RefSide

end
-- ==== Proof.lean ====
/-
  The stress of 8192 points against a table of target distances, computed two ways.

  The kernel sweeps the 8192 x 8192 table in tiles of 1024 rows by 512 columns. For each row tile it carries a column
  of 1024 partial row sums across the sixteen column tiles: it starts from zero, adds each tile's 512 terms per row,
  and after the last column tile writes the column out; the program then adds the 8192 row sums to 0. The reference
  forms the whole table of terms and adds it to 0 in one sum. On the extended reals both are 0 plus the sum of the
  same 8192 * 8192 terms, grouped differently; a finite sum in a commutative monoid does not depend on the grouping,
  so the two results are equal, whatever the inputs (the finiteness of the inputs is not used). Each pair's term is
  formed by the same operations on both sides: the two squared coordinate differences added (the reference adds them
  to 0 first), the guarded square root, the guarded quotient and its square; the reference's unordered
  "not equal" comparison and the kernel's ordered one are the same comparison on the extended reals.

  Nothing is rewritten between the kernel as printed and its reading on the extended reals, so that conjunct is
  trivial; the three frames are the generated frame runs (the reference's with its result dropped).
-/
import proofs.«103024_j49065706390061_1_alg».proof.Defs
import proofs.«103024_j49065706390061_1_alg».proof.Proof.Gen.Kernel
import proofs.«103024_j49065706390061_1_alg».proof.Proof.Gen.Kernel.Skeleton
import proofs.«103024_j49065706390061_1_alg».proof.Proof.Gen.Kernel.Launch
import proofs.«103024_j49065706390061_1_alg».proof.Proof.Gen.Kernel.Points
import proofs.«103024_j49065706390061_1_alg».proof.Proof.Gen.Kernel.Frame
import proofs.«103024_j49065706390061_1_alg».proof.Proof.Gen.KernelIdeal
import proofs.«103024_j49065706390061_1_alg».proof.Proof.Gen.KernelIdeal.Skeleton
import proofs.«103024_j49065706390061_1_alg».proof.Proof.Gen.KernelIdeal.Launch
import proofs.«103024_j49065706390061_1_alg».proof.Proof.Gen.KernelIdeal.Points
import proofs.«103024_j49065706390061_1_alg».proof.Proof.Gen.KernelIdeal.Frame
import proofs.«103024_j49065706390061_1_alg».proof.Proof.Gen.ReferenceIdeal
import proofs.«103024_j49065706390061_1_alg».proof.Proof.Gen.Pre_finite_inputs
import proofs.«103024_j49065706390061_1_alg».proof.Proof.Gen.ReferenceIdeal.Run
import proofs.«103024_j49065706390061_1_alg».proof.Proof.Gen.ReferenceIdeal.Read
import proofs.«103024_j49065706390061_1_alg».proof.Proof.Final
import proofs.«103024_j49065706390061_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the stress of the launch tables: the kernel by its carried row sums, the reference by its one
    sum over the table, from tables that agree. -/
theorem algebraic : Cert.algebraic_KernelIdeal_ReferenceIdeal := by
  intro m ρ m' ρ' _ hagree
  refine ⟨fun c => Cert.Stress.result (Cert.KernelIdeal.Accum.pts m c) (Cert.KernelIdeal.Accum.tgt m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  exact Cert.ReferenceIdeal.RefSide.result_eq _ _

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
